-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3x128x128 : Shape := ⟨3, ![3, 128, 128]⟩
abbrev S3x128 : Shape := ⟨2, ![3, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S100000x128 .f32) (main_arg1 : FVec F S3x128x128 .f32) (main_arg2 : FVec F S3x128x128 .f32) (main_arg3 : FVec F S3x128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg1
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S100000x128 : Shape := ⟨2, ![100000, 128]⟩
abbrev S3x128x128 : Shape := ⟨3, ![3, 128, 128]⟩
abbrev S3x128 : Shape := ⟨2, ![3, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩

abbrev nBuf : Space → Nat
  | .hbm => 88
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S3x128x128, .f32⟩
  | .hbm, ⟨2, _⟩ => ⟨S3x128x128, .f32⟩
  | .hbm, ⟨3, _⟩ => ⟨S3x128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128x128, .f32⟩
  | .hbm, ⟨35, _⟩ => ⟨S128x128, .f32⟩
  | .hbm, ⟨36, _⟩ => ⟨S1x128x128, .f32⟩
  | .hbm, ⟨37, _⟩ => ⟨S128x128, .f32⟩
  | .hbm, ⟨38, _⟩ => ⟨S1x128, .f32⟩
  | .hbm, ⟨39, _⟩ => ⟨S128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128x128, .f32⟩
  | .hbm, ⟨58, _⟩ => ⟨S128x128, .f32⟩
  | .hbm, ⟨59, _⟩ => ⟨S1x128x128, .f32⟩
  | .hbm, ⟨60, _⟩ => ⟨S128x128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S100000x128, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x128, .f32⟩
  | .hbm, ⟨74, _⟩ => ⟨S_, .f32⟩
  | .hbm, ⟨75, _⟩ => ⟨S100000x128, .f32⟩
  | .hbm, ⟨76, _⟩ => ⟨S1600000x1, .i32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x128x128, .f32⟩
  | .hbm, ⟨81, _⟩ => ⟨S128x128, .f32⟩
  | .hbm, ⟨82, _⟩ => ⟨S1x128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_c_8 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v68) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S3x128x128 : Shape := ⟨3, ![3, 128, 128]⟩
abbrev S3x128 : Shape := ⟨2, ![3, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 109
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3x128x128, .f32⟩
  | .hbm, ⟨2, _⟩ => ⟨S3x128x128, .f32⟩
  | .hbm, ⟨3, _⟩ => ⟨S3x128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S100000x1, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128x128, .f32⟩
  | .hbm, ⟨35, _⟩ => ⟨S128x128, .f32⟩
  | .hbm, ⟨36, _⟩ => ⟨S100000x128, .f32⟩
  | .hbm, ⟨37, _⟩ => ⟨S1x128x128, .f32⟩
  | .hbm, ⟨38, _⟩ => ⟨S128x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S1x128x128, .f32⟩
  | .hbm, ⟨65, _⟩ => ⟨S128x128, .f32⟩
  | .hbm, ⟨66, _⟩ => ⟨S100000x128, .f32⟩
  | .hbm, ⟨67, _⟩ => ⟨S1x128x128, .f32⟩
  | .hbm, ⟨68, _⟩ => ⟨S128x128, .f32⟩
  | .hbm, ⟨69, _⟩ => ⟨S100000x128, .f32⟩
  | .hbm, ⟨70, _⟩ => ⟨S100000x128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S_, .i32⟩
  | .hbm, ⟨80, _⟩ => ⟨S1600000, .i32⟩
  | .hbm, ⟨81, _⟩ => ⟨S1600000, .i1⟩
  | .hbm, ⟨82, _⟩ => ⟨S_, .i32⟩
  | .hbm, ⟨83, _⟩ => ⟨S1600000, .i32⟩
  | .hbm, ⟨84, _⟩ => ⟨S1600000, .i32⟩
  | .hbm, ⟨85, _⟩ => ⟨S1600000, .i32⟩
  | .hbm, ⟨86, _⟩ => ⟨S1600000x1, .i32⟩
  | .hbm, ⟨87, _⟩ => ⟨S1600000x128, .f32⟩
  | .hbm, ⟨88, _⟩ => ⟨S_, .f32⟩
  | .hbm, ⟨89, _⟩ => ⟨S100000x128, .f32⟩
  | .hbm, ⟨90, _⟩ => ⟨S1600000x1, .i32⟩
  | .hbm, ⟨91, _⟩ => ⟨S100000x128, .f32⟩
  | .hbm, ⟨92, _⟩ => ⟨S100000x128, .f32⟩
  | .hbm, ⟨93, _⟩ => ⟨S100000x128, .f32⟩
  | .hbm, ⟨94, _⟩ => ⟨S1x128x128, .f32⟩
  | .hbm, ⟨95, _⟩ => ⟨S128x128, .f32⟩
  | .hbm, ⟨96, _⟩ => ⟨S100000x128, .f32⟩
  | .hbm, ⟨97, _⟩ => ⟨S1x128x128, .f32⟩
  | .hbm, ⟨98, _⟩ => ⟨S128x128, .f32⟩
  | .hbm, ⟨99, _⟩ => ⟨S100000x128, .f32⟩
  | .hbm, ⟨100, _⟩ => ⟨S100000x128, .f32⟩
  | .hbm, ⟨101, _⟩ => ⟨S1x128, .f32⟩
  | .hbm, ⟨102, _⟩ => ⟨S128, .f32⟩
  | .hbm, ⟨103, _⟩ => ⟨S1x128, .f32⟩
  | .hbm, ⟨104, _⟩ => ⟨S100000x128, .f32⟩
  | .hbm, ⟨105, _⟩ => ⟨S100000x128, .f32⟩
  | .hbm, ⟨106, _⟩ => ⟨S_, .f32⟩
  | .hbm, ⟨107, _⟩ => ⟨S100000x128, .f32⟩
  | .hbm, ⟨108, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call0_cst : Ref sig .tc := ⟨.hbm, 46, rfl⟩
abbrev main_call0_v0 : Ref sig .tc := ⟨.hbm, 47, rfl⟩
abbrev main_v33 : Ref sig .tc := ⟨.hbm, 48, rfl⟩
abbrev main_c_5 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_call1_cst : Ref sig .tc := ⟨.hbm, 76, rfl⟩
abbrev main_call1_v0 : Ref sig .tc := ⟨.hbm, 77, rfl⟩
abbrev main_v58 : Ref sig .tc := ⟨.hbm, 78, rfl⟩
abbrev main_c_8 : Ref sig .tc := ⟨.hbm, 79, rfl⟩
abbrev main_v59 : Ref sig .tc := ⟨.hbm, 80, rfl⟩
abbrev main_v60 : Ref sig .tc := ⟨.hbm, 81, rfl⟩
abbrev main_c_9 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_10 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_call2_cst : Ref sig .tc := ⟨.hbm, 106, rfl⟩
abbrev main_call2_v0 : Ref sig .tc := ⟨.hbm, 107, rfl⟩
abbrev main_v83 : Ref sig .tc := ⟨.hbm, 108, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RunNamed.lean ====
/-
  The idealized kernel program's run with its result named.  The program is three pipelined regions among three
  stretches of host operations; the frame certificate of the program follows the buffer contents through that
  sequence (launch contents, after the first stretch, after the first region, ..., after the third region) and
  ends with every buffer that outlives the regions at the last of these valuations.  Here the same run is stated
  with the result array read off that last valuation, next to the six argument arrays that end as launched.
-/
import proofs.«150632_j88648124991294_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array then holds what the
    last valuation of the sequence holds at it, and the argument arrays are as launched. -/
theorem run_named : θ_run defs (onTc (τ := τ) (main (F := F))) ⟨m, fun _ => 0, ρ⟩ (fun r => ∀ c : Dev nD,
      r.2.mem ((c.tc : Thread nD τ).loc main_v68) = W6 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v68 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Named

end
-- ==== Proof.Dense.lean ====
/-
  One dense layer of the encoder, on the extended reals.  For node features `h` and aggregated neighbour
  features `hn` (both `M × 128`), weights `ws`, `wn` (both `128 × 128`) and a bias row `b`, entry `(p, q)` of the layer is

      max ( Σ_k h[p,k]·ws[k,q]  +  Σ_k hn[p,k]·wn[k,q]  +  b[q] , 0 ).

  The two sums are kept apart and in this order: both programs compute the layer with exactly this grouping, so
  no rearrangement of extended-real sums is ever needed.  The number of rows `M` is a parameter because the same
  formula is read once on a block of rows and once on the whole array; a row block of the layer is the layer of
  the row blocks (`dense_rows`), since entry `(p, q)` looks only at row `p` of `h` and `hn`.
-/
import Idealize.ShloMosaic.PureOps.Ideal.Laws
import Idealize.ShloMosaic.Lib.ValueIdx

noncomputable section

open scoped BigOperators

namespace SageDense

open Idealize.ShloMosaic Idealize.ShloMosaic.ValueIdx

/-- Entry `(p, q)` of the layer. -/
def denseAt {M : Nat} (h hn : (⟨2, ![M, 128]⟩ : Shape).Idx → EReal) (ws wn : (⟨2, ![128, 128]⟩ : Shape).Idx → EReal)
    (b : Fin 128 → EReal) (p : Fin M) (q : Fin 128) : EReal :=
  max ((∑ k : Fin 128, h (ix2 p k) * ws (ix2 k q)) + (∑ k : Fin 128, hn (ix2 p k) * wn (ix2 k q)) + b q) 0

/-- The layer as one function of the array index. -/
def dense {M : Nat} (h hn : (⟨2, ![M, 128]⟩ : Shape).Idx → EReal) (ws wn : (⟨2, ![128, 128]⟩ : Shape).Idx → EReal)
    (b : Fin 128 → EReal) : (⟨2, ![M, 128]⟩ : Shape).Idx → EReal :=
  fun i => denseAt h hn ws wn b (i 0) (i 1)

theorem dense_ix2 {M : Nat} (h hn : (⟨2, ![M, 128]⟩ : Shape).Idx → EReal) (ws wn : (⟨2, ![128, 128]⟩ : Shape).Idx → EReal)
    (b : Fin 128 → EReal) (p : Fin M) (q : Fin 128) : dense h hn ws wn b (ix2 p q) = denseAt h hn ws wn b p q := rfl

/-- Two functions on a two-axis index set that agree at every `(p, q)` are equal. -/
theorem ext2 {M N : Nat} {α : Type} {f g : (⟨2, ![M, N]⟩ : Shape).Idx → α}
    (h : ∀ (p : Fin M) (q : Fin N), f (ix2 p q) = g (ix2 p q)) : f = g := by
  funext i
  rw [eq_ix2 i]
  exact h (i 0) (i 1)

/-- Entry `(p, q)` depends on `h` and `hn` only through their row `p`: if row `p'` of `h'`, `hn'` is row `p` of
    `h`, `hn`, the entries agree. -/
theorem denseAt_rows {M M' : Nat} (h hn : (⟨2, ![M, 128]⟩ : Shape).Idx → EReal) (h' hn' : (⟨2, ![M', 128]⟩ : Shape).Idx → EReal)
    (ws wn : (⟨2, ![128, 128]⟩ : Shape).Idx → EReal) (b : Fin 128 → EReal) (p : Fin M) (p' : Fin M') (q : Fin 128)
    (e : ∀ k : Fin 128, h' (ix2 p' k) = h (ix2 p k)) (en : ∀ k : Fin 128, hn' (ix2 p' k) = hn (ix2 p k)) :
    denseAt h' hn' ws wn b p' q = denseAt h hn ws wn b p q := by
  unfold denseAt
  simp only [e, en]

end SageDense

end
-- ==== Proof.Stretch.lean ====
/-
  The host operations of the idealized kernel program, stretch by stretch.  Between its three pipelined regions the
  program computes on the host: once, the inverse in-degree of every node (a scatter-add of ones over the edges'
  destinations, clamped below by one, inverted); per layer, the mean of the in-neighbours' features (a gather of the
  current features at the edges' sources — a negative source index wrapped around by the number of nodes —, a
  scatter-add over the destinations, the product with the inverse in-degree), the layer's two weight matrices (a slice
  of the stacked weights, reshaped) and its bias row (a slice of the stacked biases, reshaped to a vector and back to
  one row).  Each is stated here as one named term of the buffer contents the stretch starts from, for ANY such
  contents `W`; a buffer no operation of the stretch writes keeps its contents.
-/
import proofs.«150632_j88648124991294_1_alg».proof.Proof.Gen.KernelIdeal.Launch
import proofs.«150632_j88648124991294_1_alg».proof.Proof.Dense
import Idealize.ShloMosaic.Lib.StableHlo.Run
import Idealize.ShloMosaic.Lib.Pipeline.Value
import Idealize.ShloMosaic.PureOps.Ideal

set_option maxRecDepth 16384

noncomputable section

namespace Cert.KernelIdeal.Stretch

open Cert.KernelIdeal Cert.KernelIdeal.Gen
open Idealize.ShloMosaic Idealize.ShloMosaic.TcCoe Idealize.ShloMosaic.ValueIdx Idealize.SL.Sem Idealize.ShloMosaic.StableHlo

/-- Feature arrays, edge-index arrays, the stacked weights and biases. -/
abbrev FA := (⟨S100000x128, .f32⟩ : BufTy).Contents (Elt Ideal)
abbrev EA := (⟨S1600000, .i32⟩ : BufTy).Contents (Elt Ideal)
abbrev WA := (⟨S3x128x128, .f32⟩ : BufTy).Contents (Elt Ideal)
abbrev BA := (⟨S3x128, .f32⟩ : BufTy).Contents (Elt Ideal)

/-- The inverse in-degree column: `1 / max(deg, 1)`, `deg` the scatter-add of ones over the destinations. -/
def inv (dst : EA) : (⟨S100000x1, .f32⟩ : BufTy).Contents (Elt Ideal) :=
  broadcastInDim S100000x1 ![0] bcast_S100000_S100000x1_0
    (Host.divf (F := Ideal) (broadcastInDim S100000 ![] bcast_S_S100000 (constant (F := Ideal) S_ .f32 0x3F800000#32))
      (maximumf
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32)))
        (broadcastInDim S100000 ![] bcast_S_S100000 (constant (F := Ideal) S_ .f32 0x3F800000#32))))

/-- The mean of the in-neighbours' features: gather at the sources, scatter-add over the destinations, times the
    inverse in-degree column `iv`. -/
def agg (iv : (⟨S100000x1, .f32⟩ : BufTy).Contents (Elt Ideal)) (src dst : EA) (h : FA) : FA :=
  mulf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select
            (cmpi .slt src (broadcastInDim S1600000 ![] bcast_S_S1600000 (constantI S_ 32 0#32)))
            (addi src (broadcastInDim S1600000 ![] bcast_S_S1600000 (constantI S_ 32 100000#32)))
            src))))
    (broadcastInDim S100000x128 ![0, 1] bcast_S100000x1_S100000x128_0_1 iv)

/-- Layer `l`'s weight matrix out of a stack of three. -/
def wsel0 (w : WA) : (⟨S128x128, .f32⟩ : BufTy).Contents (Elt Ideal) :=
  shapeCast S128x128 (extractStridedSlice S1x128x128 ![0, 0, 0] w slices_S3x128x128_S1x128x128_0_0_0) shapeCasts_S1x128x128_S128x128
def wsel1 (w : WA) : (⟨S128x128, .f32⟩ : BufTy).Contents (Elt Ideal) :=
  shapeCast S128x128 (extractStridedSlice S1x128x128 ![1, 0, 0] w slices_S3x128x128_S1x128x128_1_0_0) shapeCasts_S1x128x128_S128x128
def wsel2 (w : WA) : (⟨S128x128, .f32⟩ : BufTy).Contents (Elt Ideal) :=
  shapeCast S128x128 (extractStridedSlice S1x128x128 ![2, 0, 0] w slices_S3x128x128_S1x128x128_2_0_0) shapeCasts_S1x128x128_S128x128

/-- Layer `l`'s bias vector out of a stack of three. -/
def bvec0 (b : BA) : (⟨S128, .f32⟩ : BufTy).Contents (Elt Ideal) :=
  shapeCast S128 (extractStridedSlice S1x128 ![0, 0] b slices_S3x128_S1x128_0_0) shapeCasts_S1x128_S128
def bvec1 (b : BA) : (⟨S128, .f32⟩ : BufTy).Contents (Elt Ideal) :=
  shapeCast S128 (extractStridedSlice S1x128 ![1, 0] b slices_S3x128_S1x128_1_0) shapeCasts_S1x128_S128
def bvec2 (b : BA) : (⟨S128, .f32⟩ : BufTy).Contents (Elt Ideal) :=
  shapeCast S128 (extractStridedSlice S1x128 ![2, 0] b slices_S3x128_S1x128_2_0) shapeCasts_S1x128_S128

/-- A bias vector reshaped to one row, read at `(0, q)`, is the vector's entry `q`. -/
theorem row_apply (bv : (⟨S128, .f32⟩ : BufTy).Contents (Elt Ideal)) (q : Fin 128) :
    shapeCast S1x128 bv shapeCasts_S128_S1x128 (ix2 (0 : Fin 1) q) = bv (ix1 q) :=
  shapeCast_apply bv shapeCasts_S128_S1x128 (ix2 (0 : Fin 1) q) (ix1 q) (by
    rw [Shape.rowMajor_val_one, Shape.rowMajor_val_two]
    show q.val = 0 * 128 + q.val
    omega)

variable (W : Valuation τ sig (Elt Ideal))

/-! ## The first stretch (before the first region) -/

set_option maxHeartbeats 4000000 in
theorem s0_v8 : StableHlo.after hostOps0 W (Proc.devRef .tc main_v8) = inv (W (Proc.devRef .tc main_arg5)) := by
  after_results_simp <;> rfl
set_option maxHeartbeats 4000000 in
theorem s0_v20 : StableHlo.after hostOps0 W (Proc.devRef .tc main_v20)
    = agg (inv (W (Proc.devRef .tc main_arg5))) (W (Proc.devRef .tc main_arg4)) (W (Proc.devRef .tc main_arg5)) (W (Proc.devRef .tc main_arg0)) := by
  after_results_simp <;> rfl
set_option maxHeartbeats 4000000 in
theorem s0_v22 : StableHlo.after hostOps0 W (Proc.devRef .tc main_v22) = wsel0 (W (Proc.devRef .tc main_arg1)) := by
  after_results_simp <;> rfl
set_option maxHeartbeats 4000000 in
theorem s0_v24 : StableHlo.after hostOps0 W (Proc.devRef .tc main_v24) = wsel0 (W (Proc.devRef .tc main_arg2)) := by
  after_results_simp <;> rfl
set_option maxHeartbeats 4000000 in
theorem s0_v27 : StableHlo.after hostOps0 W (Proc.devRef .tc main_v27)
    = shapeCast S1x128 (bvec0 (W (Proc.devRef .tc main_arg3))) shapeCasts_S128_S1x128 := by
  after_results_simp <;> rfl
set_option maxHeartbeats 4000000 in
theorem s0_arg0 : StableHlo.after hostOps0 W (Proc.devRef .tc main_arg0) = W (Proc.devRef .tc main_arg0) := by
  after_results_simp <;> rfl
set_option maxHeartbeats 4000000 in
theorem s0_arg1 : StableHlo.after hostOps0 W (Proc.devRef .tc main_arg1) = W (Proc.devRef .tc main_arg1) := by
  after_results_simp <;> rfl
set_option maxHeartbeats 4000000 in
theorem s0_arg2 : StableHlo.after hostOps0 W (Proc.devRef .tc main_arg2) = W (Proc.devRef .tc main_arg2) := by
  after_results_simp <;> rfl
set_option maxHeartbeats 4000000 in
theorem s0_arg3 : StableHlo.after hostOps0 W (Proc.devRef .tc main_arg3) = W (Proc.devRef .tc main_arg3) := by
  after_results_simp <;> rfl
set_option maxHeartbeats 4000000 in
theorem s0_arg4 : StableHlo.after hostOps0 W (Proc.devRef .tc main_arg4) = W (Proc.devRef .tc main_arg4) := by
  after_results_simp <;> rfl
set_option maxHeartbeats 4000000 in
theorem s0_arg5 : StableHlo.after hostOps0 W (Proc.devRef .tc main_arg5) = W (Proc.devRef .tc main_arg5) := by
  after_results_simp <;> rfl

/-! ## The second stretch -/

set_option maxHeartbeats 4000000 in
theorem s1_agg : StableHlo.after hostOps1 W (Proc.devRef .tc main_v40)
    = agg (W (Proc.devRef .tc main_v8)) (W (Proc.devRef .tc main_arg4)) (W (Proc.devRef .tc main_arg5)) (W (Proc.devRef .tc main_v28)) := by
  after_results_simp <;> rfl
set_option maxHeartbeats 4000000 in
theorem s1_ws : StableHlo.after hostOps1 W (Proc.devRef .tc main_v42) = wsel1 (W (Proc.devRef .tc main_arg1)) := by
  after_results_simp <;> rfl
set_option maxHeartbeats 4000000 in
theorem s1_wn : StableHlo.after hostOps1 W (Proc.devRef .tc main_v44) = wsel1 (W (Proc.devRef .tc main_arg2)) := by
  after_results_simp <;> rfl
set_option maxHeartbeats 4000000 in
theorem s1_b : StableHlo.after hostOps1 W (Proc.devRef .tc main_v47)
    = shapeCast S1x128 (bvec1 (W (Proc.devRef .tc main_arg3))) shapeCasts_S128_S1x128 := by
  after_results_simp <;> rfl
set_option maxHeartbeats 4000000 in
theorem s1_h : StableHlo.after hostOps1 W (Proc.devRef .tc main_v28) = W (Proc.devRef .tc main_v28) := by
  after_results_simp <;> rfl
set_option maxHeartbeats 4000000 in
theorem s1_v8 : StableHlo.after hostOps1 W (Proc.devRef .tc main_v8) = W (Proc.devRef .tc main_v8) := by
  after_results_simp <;> rfl
set_option maxHeartbeats 4000000 in
theorem s1_arg1 : StableHlo.after hostOps1 W (Proc.devRef .tc main_arg1) = W (Proc.devRef .tc main_arg1) := by
  after_results_simp <;> rfl
set_option maxHeartbeats 4000000 in
theorem s1_arg2 : StableHlo.after hostOps1 W (Proc.devRef .tc main_arg2) = W (Proc.devRef .tc main_arg2) := by
  after_results_simp <;> rfl
set_option maxHeartbeats 4000000 in
theorem s1_arg3 : StableHlo.after hostOps1 W (Proc.devRef .tc main_arg3) = W (Proc.devRef .tc main_arg3) := by
  after_results_simp <;> rfl
set_option maxHeartbeats 4000000 in
theorem s1_arg4 : StableHlo.after hostOps1 W (Proc.devRef .tc main_arg4) = W (Proc.devRef .tc main_arg4) := by
  after_results_simp <;> rfl
set_option maxHeartbeats 4000000 in
theorem s1_arg5 : StableHlo.after hostOps1 W (Proc.devRef .tc main_arg5) = W (Proc.devRef .tc main_arg5) := by
  after_results_simp <;> rfl

/-! ## The third stretch -/

set_option maxHeartbeats 4000000 in
theorem s2_agg : StableHlo.after hostOps2 W (Proc.devRef .tc main_v60)
    = agg (W (Proc.devRef .tc main_v8)) (W (Proc.devRef .tc main_arg4)) (W (Proc.devRef .tc main_arg5)) (W (Proc.devRef .tc main_v48)) := by
  after_results_simp <;> rfl
set_option maxHeartbeats 4000000 in
theorem s2_ws : StableHlo.after hostOps2 W (Proc.devRef .tc main_v62) = wsel2 (W (Proc.devRef .tc main_arg1)) := by
  after_results_simp <;> rfl
set_option maxHeartbeats 4000000 in
theorem s2_wn : StableHlo.after hostOps2 W (Proc.devRef .tc main_v64) = wsel2 (W (Proc.devRef .tc main_arg2)) := by
  after_results_simp <;> rfl
set_option maxHeartbeats 4000000 in
theorem s2_b : StableHlo.after hostOps2 W (Proc.devRef .tc main_v67)
    = shapeCast S1x128 (bvec2 (W (Proc.devRef .tc main_arg3))) shapeCasts_S128_S1x128 := by
  after_results_simp <;> rfl
set_option maxHeartbeats 4000000 in
theorem s2_h : StableHlo.after hostOps2 W (Proc.devRef .tc main_v48) = W (Proc.devRef .tc main_v48) := by
  after_results_simp <;> rfl
set_option maxHeartbeats 4000000 in
theorem s2_v8 : StableHlo.after hostOps2 W (Proc.devRef .tc main_v8) = W (Proc.devRef .tc main_v8) := by
  after_results_simp <;> rfl
set_option maxHeartbeats 4000000 in
theorem s2_arg1 : StableHlo.after hostOps2 W (Proc.devRef .tc main_arg1) = W (Proc.devRef .tc main_arg1) := by
  after_results_simp <;> rfl
set_option maxHeartbeats 4000000 in
theorem s2_arg2 : StableHlo.after hostOps2 W (Proc.devRef .tc main_arg2) = W (Proc.devRef .tc main_arg2) := by
  after_results_simp <;> rfl
set_option maxHeartbeats 4000000 in
theorem s2_arg3 : StableHlo.after hostOps2 W (Proc.devRef .tc main_arg3) = W (Proc.devRef .tc main_arg3) := by
  after_results_simp <;> rfl
set_option maxHeartbeats 4000000 in
theorem s2_arg4 : StableHlo.after hostOps2 W (Proc.devRef .tc main_arg4) = W (Proc.devRef .tc main_arg4) := by
  after_results_simp <;> rfl
set_option maxHeartbeats 4000000 in
theorem s2_arg5 : StableHlo.after hostOps2 W (Proc.devRef .tc main_arg5) = W (Proc.devRef .tc main_arg5) := by
  after_results_simp <;> rfl

end Cert.KernelIdeal.Stretch

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.Body.lean ====
/-
  The kernel bodies read at an entry.  Each of the three pipelined regions runs the same body on a block of
  5000 rows: it loads a block `x` of node features, the matching block `xn` of aggregated neighbour features, the
  two `128 × 128` weight matrices and the bias row, narrows the four matrix operands (the identity on the extended
  reals), forms `x·ws` and `xn·wn` on the matrix unit into zero accumulators, adds them, adds the bias row
  broadcast down the rows, and takes the maximum with zero.  At entry `(p, q)` this is the dense layer's entry
  `(p, q)` of the blocks.  The second and third regions' bodies differ from the first's only by a shape cast of the
  feature block to its own shape, which is the identity.
-/
import proofs.«150632_j88648124991294_1_alg».proof.Proof.Gen.KernelIdeal.Skeleton
import proofs.«150632_j88648124991294_1_alg».proof.Proof.Dense
import proofs.«150632_j88648124991294_1_alg».proof.Proof.LibMatmulNN
import Idealize.ShloMosaic.Lib.Pipeline.Value
import Idealize.ShloMosaic.Lib.ValueLayout

noncomputable section

open scoped BigOperators

namespace Cert.KernelIdeal.Body

open Cert.KernelIdeal Cert.KernelIdeal.Gen Idealize.ShloMosaic Idealize.ShloMosaic.ValueIdx

/-- The first region's body at entry `(p, q)` of its block. -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = SageDense.denseAt (M := 5000) x0 x1 x2 x3 (fun q => x4 (ix2 (0 : Fin 1) q)) p q := by
  unfold k0_pay1
  simp only [shapeCast_self]
  rw [maximumf_apply, addf_apply, addf_apply, broadcast_apply]
  rw [show (dot_S5000x128_S128x128_S5000x128_1_0_0_1_n_n : DotDims S5000x128 S128x128 S5000x128) = DotDims.plain 5000 128 128 from rfl]
  simp only [matmul]
  rw [LibMatmulNN.matmul_zero_apply, LibMatmulNN.matmul_zero_apply, broadcastTo_1b_ab_apply]
  unfold SageDense.denseAt
  exact congrArg (max _) Ideal.ofBits_zero_f32

/-- The second region's body at entry `(p, q)` of its block. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = SageDense.denseAt (M := 5000) x0 x1 x2 x3 (fun q => x4 (ix2 (0 : Fin 1) q)) p q := by
  unfold k1_pay1
  simp only [shapeCast_self]
  rw [maximumf_apply, addf_apply, addf_apply, broadcast_apply]
  rw [show (dot_S5000x128_S128x128_S5000x128_1_0_0_1_n_n : DotDims S5000x128 S128x128 S5000x128) = DotDims.plain 5000 128 128 from rfl]
  simp only [matmul]
  rw [LibMatmulNN.matmul_zero_apply, LibMatmulNN.matmul_zero_apply, broadcastTo_1b_ab_apply]
  unfold SageDense.denseAt
  exact congrArg (max _) Ideal.ofBits_zero_f32

/-- The third region's body at entry `(p, q)` of its block. -/
theorem pay2_apply (x0 x1 : Vec Ideal S5000x128 .f32) (x2 x3 : Vec Ideal S128x128 .f32) (x4 : Vec Ideal S1x128 .f32)
    (p : Fin 5000) (q : Fin 128) :
    k2_pay1 (F := Ideal) x0 x1 x2 x3 x4 (ix2 p q)
      = SageDense.denseAt (M := 5000) x0 x1 x2 x3 (fun q => x4 (ix2 (0 : Fin 1) q)) p q := by
  unfold k2_pay1
  simp only [shapeCast_self]
  rw [maximumf_apply, addf_apply, addf_apply, broadcast_apply]
  rw [show (dot_S5000x128_S128x128_S5000x128_1_0_0_1_n_n : DotDims S5000x128 S128x128 S5000x128) = DotDims.plain 5000 128 128 from rfl]
  simp only [matmul]
  rw [LibMatmulNN.matmul_zero_apply, LibMatmulNN.matmul_zero_apply, broadcastTo_1b_ab_apply]
  unfold SageDense.denseAt
  exact congrArg (max _) Ideal.ofBits_zero_f32

/-- A block of the layer is the layer of the blocks.  Let `y` be the dense layer of blocks `x0 … x4`, entry by entry.
    If block row `j 0` of `x0`, `x1` is array row `i 0` of `A0`, `A1`, the weight blocks are the whole weight arrays, the
    bias block's row is `A4`, and `i` and `j` have the same column, then `y` at `j` is the layer of the arrays at `i`. -/
theorem point (y : S5000x128.Idx → EReal) (x0 x1 : S5000x128.Idx → EReal) (x2 x3 : S128x128.Idx → EReal) (x4 : S1x128.Idx → EReal)
    (hy : ∀ (p : Fin 5000) (q : Fin 128), y (ix2 p q) = SageDense.denseAt (M := 5000) x0 x1 x2 x3 (fun q => x4 (ix2 (0 : Fin 1) q)) p q)
    (A0 A1 : S100000x128.Idx → EReal) (A2 A3 : S128x128.Idx → EReal) (A4 : Fin 128 → EReal)
    (j : S5000x128.Idx) (i : S100000x128.Idx) (hq : (i 1).val = (j 1).val)
    (h0 : ∀ k : Fin 128, x0 (ix2 (j 0) k) = A0 (ix2 (i 0) k)) (h1 : ∀ k : Fin 128, x1 (ix2 (j 0) k) = A1 (ix2 (i 0) k))
    (h2 : x2 = A2) (h3 : x3 = A3) (h4 : ∀ q : Fin 128, x4 (ix2 (0 : Fin 1) q) = A4 q) :
    y j = SageDense.dense (M := 100000) A0 A1 A2 A3 A4 i := by
  subst h2 h3
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have e1 : s = q := Fin.ext hq
  subst e1
  have e4 : (fun q => x4 (ix2 (0 : Fin 1) q)) = A4 := funext h4
  rw [hy, SageDense.dense_ix2, e4]
  exact SageDense.denseAt_rows A0 A1 x0 x1 x2 x3 A4 r p s h0 h1

end Cert.KernelIdeal.Body

end
-- ==== Proof.Region0.lean ====
/-
  The first pipelined region, in closed form.  Its grid has 20 points; point `t` stages rows
  `5000·t … 5000·t + 4999` of the node features and of the aggregated neighbour features, the whole of both weight
  matrices and the whole bias row, runs the body, and writes its block back to the same rows of the output array.
  Entry `(p, q)` of the dense layer reads only row `p` of the two feature arrays, so the block point `t` writes back
  is the row block of the layer of the WHOLE arrays; the 20 blocks tile the output array (row `r` lies in the block of
  point `r / 5000`), hence the array ends holding the dense layer of the arrays as the region found them.
  Stated for any contents `V` of the buffers at the region's entry.
-/
import proofs.«150632_j88648124991294_1_alg».proof.Proof.Gen.KernelIdeal.Frame
import proofs.«150632_j88648124991294_1_alg».proof.Proof.Body
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The dense layer of the five input arrays as the region finds them. -/
def G (c : Dev nD) : S100000x128.Idx → EReal :=
  SageDense.dense (M := 100000) (V c main_arg0) (V c main_v20) (V c main_v22) (V c main_v24) (fun q => V c main_v27 (ix2 (0 : Fin 1) q))

theorem hz : (![0, 0] : Fin 2 → Nat) = fun _ => 0 := funext fun a => by fin_cases a <;> rfl

/-- The index maps over the grid: the two feature windows and the output window are at row block `t`, column block 0;
    the weight and bias windows stay at block (0, 0). -/
theorem idx_facts : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every row block is some point's. -/
theorem pts : ∀ q0 : Fin 20, ∃ t : Fin cfg0.N, t.val = q0.val :=
  (by decide +kernel : ∀ q0 : Fin 20, ∃ t : Fin grid0.N, t.val = q0.val)

/-- What point `t` writes back is block `t` of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  show k0_pay1 (F := Ideal) (iblk0 V c 0 t) (iblk0 V c 1 t) (iblk0 V c 2 t) (iblk0 V c 3 t) (iblk0 V c 4 t) j
    = G V c (((cfg0.win 5).blk t).view.emb j)
  unfold G
  refine Body.point _ (iblk0 V c 0 t) (iblk0 V c 1 t) (iblk0 V c 2 t) (iblk0 V c 3 t) (iblk0 V c 4 t)
    (Body.pay0_apply _ _ _ _ _) (V c main_arg0) (V c main_v20) (V c main_v22) (V c main_v24) (fun q => V c main_v27 (ix2 (0 : Fin 1) q))
    j (((cfg0.win 5).blk t).view.emb j) ?_ ?_ ?_ ?_ ?_ ?_
  · show win0_5.index t (1 : Fin 2) * 128 + 1 * (j 1).val = (j 1).val
    omega
  · intro k
    show V c main_arg0 (((cfg0.win 0).blk t).view.emb (ix2 (j 0) k)) = V c main_arg0 (ix2 ((((cfg0.win 5).blk t).view.emb j) 0) k)
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 128 + 1 * k.val = k.val; omega
  · intro k
    show V c main_v20 (((cfg0.win 1).blk t).view.emb (ix2 (j 0) k)) = V c main_v20 (ix2 ((((cfg0.win 5).blk t).view.emb j) 0) k)
    refine congrArg (V c main_v20) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 128 + 1 * k.val = k.val; omega
  · funext y
    show V c main_v22 (((cfg0.win 2).blk t).view.emb y) = V c main_v22 y
    refine congrArg (V c main_v22) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_v24 (((cfg0.win 3).blk t).view.emb y) = V c main_v24 y
    refine congrArg (V c main_v24) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · intro q
    show V c main_v27 (((cfg0.win 4).blk t).view.emb (ix2 (0 : Fin 1) q)) = V c main_v27 (ix2 (0 : Fin 1) q)
    refine congrArg (V c main_v27) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v28).slice (win0_5.rect t)).set ↔ _
  rw [View.set_slice_whole, Rect.mem_set_unit]
  exact Iff.rfl

/-- The 20 blocks tile the output array: row `r` is in the block of point `r / 5000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := pts ⟨(i 0).val / 5000, by omega⟩
  have ht' : t.val = (i 0).val / 5000 := ht
  obtain ⟨-, -, -, -, -, -, -, -, -, -, e50, e51⟩ := idx_facts t
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The output array after the region: the dense layer of the arrays as the region found them. -/
theorem final (c : Dev nD) : (dat0 V c).arrAt 5 cfg0.N = G V c :=
  (dat0 V c).arrAt_eq_of_cover 5 (G V c) (fun t _ => flushed_eq V c t) cover

end Cert.KernelIdeal.Region0

end
-- ==== Proof.Region1.lean ====
/-
  The second pipelined region, in closed form.  Its grid has 20 points; point `t` stages rows
  `5000·t … 5000·t + 4999` of the node features and of the aggregated neighbour features, the whole of both weight
  matrices and the whole bias row, runs the body, and writes its block back to the same rows of the output array.
  Entry `(p, q)` of the dense layer reads only row `p` of the two feature arrays, so the block point `t` writes back
  is the row block of the layer of the WHOLE arrays; the 20 blocks tile the output array (row `r` lies in the block of
  point `r / 5000`), hence the array ends holding the dense layer of the arrays as the region found them.
  Stated for any contents `V` of the buffers at the region's entry.
-/
import proofs.«150632_j88648124991294_1_alg».proof.Proof.Gen.KernelIdeal.Frame
import proofs.«150632_j88648124991294_1_alg».proof.Proof.Body
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The dense layer of the five input arrays as the region finds them. -/
def G (c : Dev nD) : S100000x128.Idx → EReal :=
  SageDense.dense (M := 100000) (V c main_v28) (V c main_v40) (V c main_v42) (V c main_v44) (fun q => V c main_v47 (ix2 (0 : Fin 1) q))

theorem hz : (![0, 0] : Fin 2 → Nat) = fun _ => 0 := funext fun a => by fin_cases a <;> rfl

/-- The index maps over the grid: the two feature windows and the output window are at row block `t`, column block 0;
    the weight and bias windows stay at block (0, 0). -/
theorem idx_facts : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Every row block is some point's. -/
theorem pts : ∀ q0 : Fin 20, ∃ t : Fin cfg1.N, t.val = q0.val :=
  (by decide +kernel : ∀ q0 : Fin 20, ∃ t : Fin grid1.N, t.val = q0.val)

/-- What point `t` writes back is block `t` of the layer of the whole arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  show k1_pay1 (F := Ideal) (iblk1 V c 0 t) (iblk1 V c 1 t) (iblk1 V c 2 t) (iblk1 V c 3 t) (iblk1 V c 4 t) j
    = G V c (((cfg1.win 5).blk t).view.emb j)
  unfold G
  refine Body.point _ (iblk1 V c 0 t) (iblk1 V c 1 t) (iblk1 V c 2 t) (iblk1 V c 3 t) (iblk1 V c 4 t)
    (Body.pay1_apply _ _ _ _ _) (V c main_v28) (V c main_v40) (V c main_v42) (V c main_v44) (fun q => V c main_v47 (ix2 (0 : Fin 1) q))
    j (((cfg1.win 5).blk t).view.emb j) ?_ ?_ ?_ ?_ ?_ ?_
  · show win1_5.index t (1 : Fin 2) * 128 + 1 * (j 1).val = (j 1).val
    omega
  · intro k
    show V c main_v28 (((cfg1.win 0).blk t).view.emb (ix2 (j 0) k)) = V c main_v28 (ix2 ((((cfg1.win 5).blk t).view.emb j) 0) k)
    refine congrArg (V c main_v28) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 128 + 1 * k.val = k.val; omega
  · intro k
    show V c main_v40 (((cfg1.win 1).blk t).view.emb (ix2 (j 0) k)) = V c main_v40 (ix2 ((((cfg1.win 5).blk t).view.emb j) 0) k)
    refine congrArg (V c main_v40) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 128 + 1 * k.val = k.val; omega
  · funext y
    show V c main_v42 (((cfg1.win 2).blk t).view.emb y) = V c main_v42 y
    refine congrArg (V c main_v42) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  · funext y
    show V c main_v44 (((cfg1.win 3).blk t).view.emb y) = V c main_v44 y
    refine congrArg (V c main_v44) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  · intro q
    show V c main_v47 (((cfg1.win 4).blk t).view.emb (ix2 (0 : Fin 1) q)) = V c main_v47 (ix2 (0 : Fin 1) q)
    refine congrArg (V c main_v47) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v48).slice (win1_5.rect t)).set ↔ _
  rw [View.set_slice_whole, Rect.mem_set_unit]
  exact Iff.rfl

/-- The 20 blocks tile the output array: row `r` is in the block of point `r / 5000`. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := pts ⟨(i 0).val / 5000, by omega⟩
  have ht' : t.val = (i 0).val / 5000 := ht
  obtain ⟨-, -, -, -, -, -, -, -, -, -, e50, e51⟩ := idx_facts t
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The output array after the region: the dense layer of the arrays as the region found them. -/
theorem final (c : Dev nD) : (dat1 V c).arrAt 5 cfg1.N = G V c :=
  (dat1 V c).arrAt_eq_of_cover 5 (G V c) (fun t _ => flushed_eq V c t) cover

end Cert.KernelIdeal.Region1

end
-- ==== Proof.Region2.lean ====
/-
  The third pipelined region, in closed form.  Its grid has 20 points; point `t` stages rows
  `5000·t … 5000·t + 4999` of the node features and of the aggregated neighbour features, the whole of both weight
  matrices and the whole bias row, runs the body, and writes its block back to the same rows of the output array.
  Entry `(p, q)` of the dense layer reads only row `p` of the two feature arrays, so the block point `t` writes back
  is the row block of the layer of the WHOLE arrays; the 20 blocks tile the output array (row `r` lies in the block of
  point `r / 5000`), hence the array ends holding the dense layer of the arrays as the region found them.
  Stated for any contents `V` of the buffers at the region's entry.
-/
import proofs.«150632_j88648124991294_1_alg».proof.Proof.Gen.KernelIdeal.Frame
import proofs.«150632_j88648124991294_1_alg».proof.Proof.Body
import Idealize.ShloMosaic.Lib.Pipeline.Value

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The dense layer of the five input arrays as the region finds them. -/
def G (c : Dev nD) : S100000x128.Idx → EReal :=
  SageDense.dense (M := 100000) (V c main_v48) (V c main_v60) (V c main_v62) (V c main_v64) (fun q => V c main_v67 (ix2 (0 : Fin 1) q))

theorem hz : (![0, 0] : Fin 2 → Nat) = fun _ => 0 := funext fun a => by fin_cases a <;> rfl

/-- The index maps over the grid: the two feature windows and the output window are at row block `t`, column block 0;
    the weight and bias windows stay at block (0, 0). -/
theorem idx_facts : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every row block is some point's. -/
theorem pts : ∀ q0 : Fin 20, ∃ t : Fin cfg2.N, t.val = q0.val :=
  (by decide +kernel : ∀ q0 : Fin 20, ∃ t : Fin grid2.N, t.val = q0.val)

/-- What point `t` writes back is block `t` of the layer of the whole arrays. -/
theorem flushed_eq (c : Dev nD) (t : Fin cfg2.N) :
    (dat2 V c).flushed 5 t = ((cfg2.win 5).blk t).view.read (Elt Ideal) (G V c) := by
  show (cfg2.win 5).cut (grid2.coords t) ((dat2 V c).after 5 t) = _
  rw [after2_5]
  unfold out2_5
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51⟩ := idx_facts t
  funext j
  show k2_pay1 (F := Ideal) (iblk2 V c 0 t) (iblk2 V c 1 t) (iblk2 V c 2 t) (iblk2 V c 3 t) (iblk2 V c 4 t) j
    = G V c (((cfg2.win 5).blk t).view.emb j)
  unfold G
  refine Body.point _ (iblk2 V c 0 t) (iblk2 V c 1 t) (iblk2 V c 2 t) (iblk2 V c 3 t) (iblk2 V c 4 t)
    (Body.pay2_apply _ _ _ _ _) (V c main_v48) (V c main_v60) (V c main_v62) (V c main_v64) (fun q => V c main_v67 (ix2 (0 : Fin 1) q))
    j (((cfg2.win 5).blk t).view.emb j) ?_ ?_ ?_ ?_ ?_ ?_
  · show win2_5.index t (1 : Fin 2) * 128 + 1 * (j 1).val = (j 1).val
    omega
  · intro k
    show V c main_v48 (((cfg2.win 0).blk t).view.emb (ix2 (j 0) k)) = V c main_v48 (ix2 ((((cfg2.win 5).blk t).view.emb j) 0) k)
    refine congrArg (V c main_v48) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * k.val = k.val; omega
  · intro k
    show V c main_v60 (((cfg2.win 1).blk t).view.emb (ix2 (j 0) k)) = V c main_v60 (ix2 ((((cfg2.win 5).blk t).view.emb j) 0) k)
    refine congrArg (V c main_v60) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 128 + 1 * k.val = k.val; omega
  · funext y
    show V c main_v62 (((cfg2.win 2).blk t).view.emb y) = V c main_v62 y
    refine congrArg (V c main_v62) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  · funext y
    show V c main_v64 (((cfg2.win 3).blk t).view.emb y) = V c main_v64 y
    refine congrArg (V c main_v64) (funext fun a => Fin.ext ?_)
    match a with
    | ⟨0, _⟩ => show win2_3.index t (0 : Fin 2) * 128 + 1 * (y 0).val = (y 0).val; omega
    | ⟨1, _⟩ => show win2_3.index t (1 : Fin 2) * 128 + 1 * (y 1).val = (y 1).val; omega
  · intro q
    show V c main_v67 (((cfg2.win 4).blk t).view.emb (ix2 (0 : Fin 1) q)) = V c main_v67 (ix2 (0 : Fin 1) q)
    refine congrArg (V c main_v67) (funext fun a => Fin.ext ?_)
    match a with
    | ⟨0, _⟩ => show win2_4.index t (0 : Fin 2) * 1 + 1 * 0 = 0; omega
    | ⟨1, _⟩ => show win2_4.index t (1 : Fin 2) * 128 + 1 * q.val = q.val; omega

/-- An index of the output array is in point `t`'s block iff each coordinate is in the block's range on its axis. -/
theorem mem_blk (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v68).slice (win2_5.rect t)).set ↔ _
  rw [View.set_slice_whole, Rect.mem_set_unit]
  exact Iff.rfl

/-- The 20 blocks tile the output array: row `r` is in the block of point `r / 5000`. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := pts ⟨(i 0).val / 5000, by omega⟩
  have ht' : t.val = (i 0).val / 5000 := ht
  obtain ⟨-, -, -, -, -, -, -, -, -, -, e50, e51⟩ := idx_facts t
  refine ⟨t, flush2_5 t, ?_⟩
  rw [mem_blk]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output array after the region: the dense layer of the arrays as the region found them. -/
theorem final (c : Dev nD) : (dat2 V c).arrAt 5 cfg2.N = G V c :=
  (dat2 V c).arrAt_eq_of_cover 5 (G V c) (fun t _ => flushed_eq V c t) cover

end Cert.KernelIdeal.Region2

end
-- ==== Proof.Chain.lean ====
/-
  The idealized kernel program's result as three dense layers.  Following the buffer contents through the program
  — launch, first stretch of host operations, first region, second stretch, second region, third stretch, third
  region —: the stacked weights and biases, the edge arrays and the inverse in-degree column keep their contents from
  the first stretch on (no later operation writes them); each stretch leaves, for its region, the current features,
  their neighbour mean, the layer's two weight matrices and its bias row; each region leaves the dense layer of those
  five arrays in its output array (the regions' closed forms).  So the array the third region writes is the layer
  map applied three times to the node features as launched.
-/
import proofs.«150632_j88648124991294_1_alg».proof.Proof.RunNamed
import proofs.«150632_j88648124991294_1_alg».proof.Proof.Stretch
import proofs.«150632_j88648124991294_1_alg».proof.Proof.Region0
import proofs.«150632_j88648124991294_1_alg».proof.Proof.Region1
import proofs.«150632_j88648124991294_1_alg».proof.Proof.Region2

set_option maxRecDepth 16384

noncomputable section

namespace Cert.KernelIdeal.Chain

open Cert.KernelIdeal Cert.KernelIdeal.Gen Cert.KernelIdeal.Stretch
open Idealize.ShloMosaic Idealize.ShloMosaic.TcCoe Idealize.ShloMosaic.ValueIdx Idealize.SL.Sem Idealize.ShloMosaic.StableHlo

/-- One layer: the dense layer of the features and of their neighbour mean, with layer `l`'s weights and bias. -/
def layer0 (a1 a2 : WA) (a3 : BA) (src dst : EA) (h : FA) : FA :=
  SageDense.dense (M := 100000) h (agg (inv dst) src dst h) (wsel0 a1) (wsel0 a2) (fun q => bvec0 a3 (ix1 q))
def layer1 (a1 a2 : WA) (a3 : BA) (src dst : EA) (h : FA) : FA :=
  SageDense.dense (M := 100000) h (agg (inv dst) src dst h) (wsel1 a1) (wsel1 a2) (fun q => bvec1 a3 (ix1 q))
def layer2 (a1 a2 : WA) (a3 : BA) (src dst : EA) (h : FA) : FA :=
  SageDense.dense (M := 100000) h (agg (inv dst) src dst h) (wsel2 a1) (wsel2 a2) (fun q => bvec2 a3 (ix1 q))

/-- What every later stretch and region reads besides the features: the stacked weights and biases, the edge arrays,
    and the inverse in-degree column, at fixed contents. -/
structure Env (W : Valuation τ sig (Elt Ideal)) (a1 a2 : WA) (a3 : BA) (s d : EA) : Prop where
  h1 : W (Proc.devRef .tc main_arg1) = a1
  h2 : W (Proc.devRef .tc main_arg2) = a2
  h3 : W (Proc.devRef .tc main_arg3) = a3
  h4 : W (Proc.devRef .tc main_arg4) = s
  h5 : W (Proc.devRef .tc main_arg5) = d
  h8 : W (Proc.devRef .tc main_v8) = inv d

theorem env_s0 (W : Valuation τ sig (Elt Ideal)) (a1 a2 : WA) (a3 : BA) (s d : EA)
    (h1 : W (Proc.devRef .tc main_arg1) = a1) (h2 : W (Proc.devRef .tc main_arg2) = a2) (h3 : W (Proc.devRef .tc main_arg3) = a3)
    (h4 : W (Proc.devRef .tc main_arg4) = s) (h5 : W (Proc.devRef .tc main_arg5) = d) :
    Env (StableHlo.after hostOps0 W) a1 a2 a3 s d :=
  ⟨(s0_arg1 W).trans h1, (s0_arg2 W).trans h2, (s0_arg3 W).trans h3, (s0_arg4 W).trans h4, (s0_arg5 W).trans h5,
    (s0_v8 W).trans (congrArg inv h5)⟩

theorem env_s1 (W : Valuation τ sig (Elt Ideal)) (a1 a2 : WA) (a3 : BA) (s d : EA) (h : Env W a1 a2 a3 s d) :
    Env (StableHlo.after hostOps1 W) a1 a2 a3 s d :=
  ⟨(s1_arg1 W).trans h.h1, (s1_arg2 W).trans h.h2, (s1_arg3 W).trans h.h3, (s1_arg4 W).trans h.h4, (s1_arg5 W).trans h.h5,
    (s1_v8 W).trans h.h8⟩

theorem env_s2 (W : Valuation τ sig (Elt Ideal)) (a1 a2 : WA) (a3 : BA) (s d : EA) (h : Env W a1 a2 a3 s d) :
    Env (StableHlo.after hostOps2 W) a1 a2 a3 s d :=
  ⟨(s2_arg1 W).trans h.h1, (s2_arg2 W).trans h.h2, (s2_arg3 W).trans h.h3, (s2_arg4 W).trans h.h4, (s2_arg5 W).trans h.h5,
    (s2_v8 W).trans h.h8⟩

variable (m : (ℓ : Loc nD τ sig) → Buf (Elt Ideal) ℓ) (ρ : Dev nD → PrngReg) (c : Dev nD)

/-- The argument arrays as launched. -/
abbrev X : FA := m ((c.tc : Thread nD τ).loc main_arg0)
abbrev A1 : WA := m ((c.tc : Thread nD τ).loc main_arg1)
abbrev A2 : WA := m ((c.tc : Thread nD τ).loc main_arg2)
abbrev A3 : BA := m ((c.tc : Thread nD τ).loc main_arg3)
abbrev Sr : EA := m ((c.tc : Thread nD τ).loc main_arg4)
abbrev Ds : EA := m ((c.tc : Thread nD τ).loc main_arg5)

theorem env1 : Env (W1 m ρ c) (A1 m c) (A2 m c) (A3 m c) (Sr m c) (Ds m c) :=
  env_s0 (W0 m ρ c) _ _ _ _ _ rfl rfl rfl rfl rfl

theorem env2 : Env (W2 m ρ c) (A1 m c) (A2 m c) (A3 m c) (Sr m c) (Ds m c) :=
  have e := env1 m ρ c
  ⟨(W2_of_ne m ρ c main_arg1 (by decide)).trans e.h1, (W2_of_ne m ρ c main_arg2 (by decide)).trans e.h2,
   (W2_of_ne m ρ c main_arg3 (by decide)).trans e.h3, (W2_of_ne m ρ c main_arg4 (by decide)).trans e.h4,
   (W2_of_ne m ρ c main_arg5 (by decide)).trans e.h5, (W2_of_ne m ρ c main_v8 (by decide)).trans e.h8⟩

theorem env3 : Env (W3 m ρ c) (A1 m c) (A2 m c) (A3 m c) (Sr m c) (Ds m c) :=
  env_s1 (W2 m ρ c) _ _ _ _ _ (env2 m ρ c)

theorem env4 : Env (W4 m ρ c) (A1 m c) (A2 m c) (A3 m c) (Sr m c) (Ds m c) :=
  have e := env3 m ρ c
  ⟨(W4_of_ne m ρ c main_arg1 (by decide)).trans e.h1, (W4_of_ne m ρ c main_arg2 (by decide)).trans e.h2,
   (W4_of_ne m ρ c main_arg3 (by decide)).trans e.h3, (W4_of_ne m ρ c main_arg4 (by decide)).trans e.h4,
   (W4_of_ne m ρ c main_arg5 (by decide)).trans e.h5, (W4_of_ne m ρ c main_v8 (by decide)).trans e.h8⟩

/-- After the first region its output array holds the first layer of the node features. -/
theorem out0 : W2 m ρ c (Proc.devRef .tc main_v28) = layer0 (A1 m c) (A2 m c) (A3 m c) (Sr m c) (Ds m c) (X m c) := by
  refine (W2_arr m ρ c 5).trans ?_
  rw [Region0.final (V1 m ρ) c]
  unfold Region0.G
  dsimp only [V1, W1]
  rw [s0_arg0, s0_v20, s0_v22, s0_v24, s0_v27]
  unfold layer0
  exact congrArg (SageDense.dense (M := 100000) _ _ _ _) (funext fun q => row_apply _ q)

/-- After the second region its output array holds the second layer of that. -/
theorem out1 : W4 m ρ c (Proc.devRef .tc main_v48)
    = layer1 (A1 m c) (A2 m c) (A3 m c) (Sr m c) (Ds m c) (layer0 (A1 m c) (A2 m c) (A3 m c) (Sr m c) (Ds m c) (X m c)) := by
  have e := env2 m ρ c
  refine (W4_arr m ρ c 5).trans ?_
  rw [Region1.final (V3 m ρ) c]
  unfold Region1.G
  dsimp only [V3, W3]
  rw [s1_h, s1_agg, s1_ws, s1_wn, s1_b]
  rw [out0, e.h1, e.h2, e.h3, e.h4, e.h5, e.h8]
  unfold layer1
  exact congrArg (SageDense.dense (M := 100000) _ _ _ _) (funext fun q => row_apply _ q)

/-- After the third region the result array holds the third layer of that. -/
theorem out2 : W6 m ρ c (Proc.devRef .tc main_v68)
    = layer2 (A1 m c) (A2 m c) (A3 m c) (Sr m c) (Ds m c)
        (layer1 (A1 m c) (A2 m c) (A3 m c) (Sr m c) (Ds m c) (layer0 (A1 m c) (A2 m c) (A3 m c) (Sr m c) (Ds m c) (X m c))) := by
  have e := env4 m ρ c
  refine (W6_arr m ρ c 5).trans ?_
  rw [Region2.final (V5 m ρ) c]
  unfold Region2.G
  dsimp only [V5, W5]
  rw [s2_h, s2_agg, s2_ws, s2_wn, s2_b]
  rw [out1, e.h1, e.h2, e.h3, e.h4, e.h5, e.h8]
  unfold layer2
  exact congrArg (SageDense.dense (M := 100000) _ _ _ _) (funext fun q => row_apply _ q)

/-- The program's run, read: the result array ends at the three layers of the node features as launched, the
    argument arrays end as launched. -/
theorem run : θ_run defs (onTc (τ := τ) (main (F := Ideal))) ⟨m, fun _ => 0, ρ⟩ (fun r => ∀ c : Dev nD,
      r.2.mem ((c.tc : Thread nD τ).loc main_v68)
        = layer2 (A1 m c) (A2 m c) (A3 m c) (Sr m c) (Ds m c)
            (layer1 (A1 m c) (A2 m c) (A3 m c) (Sr m c) (Ds m c) (layer0 (A1 m c) (A2 m c) (A3 m c) (Sr m c) (Ds m c) (X m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out2 m ρ c), (h c).2⟩) (Named.run_named m ρ)

end Cert.KernelIdeal.Chain

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«150632_j88648124991294_1_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.RefLayer.lean ====
/-
  The reference's dense layer read at an entry.  The reference computes a layer of the encoder on whole arrays:
  the host's `dot_general` of the node features with the self weights, the `dot_general` of the aggregated neighbour
  features with the neighbour weights, their sum, plus the bias vector broadcast first to one row and then down all
  rows, and the maximum with the zero array.  Entry `(p, q)` is the dense layer's entry: the two contractions are the
  same sums over `k : Fin 128`, the bias term is the vector's entry `q`, and the zero array's entry is `0`.
-/
import proofs.«150632_j88648124991294_1_alg».proof.Proof.Dense
import proofs.«150632_j88648124991294_1_alg».proof.Proof.LibDotGeneralNN
import Idealize.ShloMosaic.Lib.Pipeline.Value

noncomputable section

open scoped BigOperators

namespace SageDense

open Idealize.ShloMosaic Idealize.ShloMosaic.ValueIdx

/-- The reference's layer on whole arrays is the dense layer, with the bias read off the bias vector. -/
theorem host_layer (d : DotDims ⟨2, ![100000, 128]⟩ ⟨2, ![128, 128]⟩ ⟨2, ![100000, 128]⟩) (hd : d = DotDims.plain 100000 128 128)
    (hb0 : (⟨0, ![]⟩ : Shape).BroadcastsInDim ⟨2, ![100000, 128]⟩ (![] : Fin 0 → Fin 2))
    (hb1 : (⟨1, ![128]⟩ : Shape).BroadcastsInDim ⟨2, ![1, 128]⟩ (![1] : Fin 1 → Fin 2))
    (hb2 : (⟨2, ![1, 128]⟩ : Shape).BroadcastsInDim ⟨2, ![100000, 128]⟩ (![0, 1] : Fin 2 → Fin 2))
    (h hn : FVec Ideal ⟨2, ![100000, 128]⟩ .f32) (ws wn : FVec Ideal ⟨2, ![128, 128]⟩ .f32) (bv : FVec Ideal ⟨1, ![128]⟩ .f32) :
    maximumf (addf (addf (Host.dotGeneral d none h ws) (Host.dotGeneral d none hn wn))
        (broadcastInDim ⟨2, ![100000, 128]⟩ ![0, 1] hb2 (broadcastInDim ⟨2, ![1, 128]⟩ ![1] hb1 bv)))
      (broadcastInDim ⟨2, ![100000, 128]⟩ ![] hb0 (constant (F := Ideal) ⟨0, ![]⟩ .f32 0x00000000#32))
    = dense (M := 100000) h hn ws wn (fun q => bv (ix1 q)) := by
  subst hd
  refine ext2 fun p q => ?_
  rw [dense_ix2, maximumf_apply, addf_apply, addf_apply]
  simp only [Host.dotGeneral]
  rw [LibDotGeneralNN.dotGeneral_apply, LibDotGeneralNN.dotGeneral_apply]
  rw [broadcastInDim_apply ![0, 1] hb2 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  rw [broadcastInDim_apply ![1] hb1 bv (ix2 (0 : Fin 1) q) (ix1 q) (fun a => match a with
    | ⟨0, _⟩ => by show q.val = if (128 : Nat) = 1 then 0 else q.val; rw [if_neg (by decide)])]
  rw [broadcastInDim_apply ![] hb0 _ (ix2 p q) ix0 (fun a => a.elim0)]
  rw [constant_apply, Ideal.ofBits_zero_f32]
  rfl

end SageDense

end
-- ==== Proof.RefValue.lean ====
/-
  The reference's result as three dense layers.  The reference is straight-line host code: the inverse in-degree
  column once, then per layer the mean of the in-neighbours' features, two `dot_general`s against the layer's
  weights, the bias, and the maximum with zero.  Its run gives the result as one composed term of the argument arrays;
  that term is the layer map applied three times, and each layer map is the dense layer of the features and of their
  neighbour mean (SageDense.host_layer).
-/
import proofs.«150632_j88648124991294_1_alg».proof.Proof.Gen.ReferenceIdeal.Run
import proofs.«150632_j88648124991294_1_alg».proof.Proof.RefLayer

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.ShloMosaic.ValueIdx Idealize.SL.Sem

/-- Feature arrays, edge-index arrays, the stacked weights and biases. -/
abbrev FA := (⟨S100000x128, .f32⟩ : BufTy).Contents (Elt Ideal)
abbrev EA := (⟨S1600000, .i32⟩ : BufTy).Contents (Elt Ideal)
abbrev WA := (⟨S3x128x128, .f32⟩ : BufTy).Contents (Elt Ideal)
abbrev BA := (⟨S3x128, .f32⟩ : BufTy).Contents (Elt Ideal)

/-- The inverse in-degree column: `1 / max(deg, 1)`, `deg` the scatter-add of ones over the destinations. -/
def inv (dst : EA) : (⟨S100000x1, .f32⟩ : BufTy).Contents (Elt Ideal) :=
  broadcastInDim S100000x1 ![0] bcast_S100000_S100000x1_0
    (Host.divf (F := Ideal) (broadcastInDim S100000 ![] bcast_S_S100000 (constant (F := Ideal) S_ .f32 0x3F800000#32))
      (maximumf
        (Host.scatterAdd (F := Ideal) scatter_S100000_S1600000x1_S1600000_n_0_0_1
          (broadcastInDim S100000 ![] bcast_S_S100000 (constant (F := Ideal) S_ .f32 0x00000000#32))
          (broadcastInDim S1600000x1 ![0] bcast_S1600000_S1600000x1_0 dst)
          (broadcastInDim S1600000 ![] bcast_S_S1600000 (constant (F := Ideal) S_ .f32 0x3F800000#32)))
        (broadcastInDim S100000 ![] bcast_S_S100000 (constant (F := Ideal) S_ .f32 0x3F800000#32))))

/-- The mean of the in-neighbours' features: gather at the sources, scatter-add over the destinations, times the
    inverse in-degree column `iv`. -/
def agg (iv : (⟨S100000x1, .f32⟩ : BufTy).Contents (Elt Ideal)) (src dst : EA) (h : FA) : FA :=
  mulf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 h
        (broadcastInDim S1600000x1 ![0] bcast_S1600000_S1600000x1_0
          (select
            (cmpi .slt src (broadcastInDim S1600000 ![] bcast_S_S1600000 (constantI S_ 32 0#32)))
            (addi src (broadcastInDim S1600000 ![] bcast_S_S1600000 (constantI S_ 32 100000#32)))
            src))))
    (broadcastInDim S100000x128 ![0, 1] bcast_S100000x1_S100000x128_0_1 iv)

/-- Layer `l`'s weight matrix out of a stack of three. -/
def wsel0 (w : WA) : (⟨S128x128, .f32⟩ : BufTy).Contents (Elt Ideal) :=
  shapeCast S128x128 (extractStridedSlice S1x128x128 ![0, 0, 0] w slices_S3x128x128_S1x128x128_0_0_0) shapeCasts_S1x128x128_S128x128
def wsel1 (w : WA) : (⟨S128x128, .f32⟩ : BufTy).Contents (Elt Ideal) :=
  shapeCast S128x128 (extractStridedSlice S1x128x128 ![1, 0, 0] w slices_S3x128x128_S1x128x128_1_0_0) shapeCasts_S1x128x128_S128x128
def wsel2 (w : WA) : (⟨S128x128, .f32⟩ : BufTy).Contents (Elt Ideal) :=
  shapeCast S128x128 (extractStridedSlice S1x128x128 ![2, 0, 0] w slices_S3x128x128_S1x128x128_2_0_0) shapeCasts_S1x128x128_S128x128

/-- Layer `l`'s bias vector out of a stack of three. -/
def bvec0 (b : BA) : (⟨S128, .f32⟩ : BufTy).Contents (Elt Ideal) :=
  shapeCast S128 (extractStridedSlice S1x128 ![0, 0] b slices_S3x128_S1x128_0_0) shapeCasts_S1x128_S128
def bvec1 (b : BA) : (⟨S128, .f32⟩ : BufTy).Contents (Elt Ideal) :=
  shapeCast S128 (extractStridedSlice S1x128 ![1, 0] b slices_S3x128_S1x128_1_0) shapeCasts_S1x128_S128
def bvec2 (b : BA) : (⟨S128, .f32⟩ : BufTy).Contents (Elt Ideal) :=
  shapeCast S128 (extractStridedSlice S1x128 ![2, 0] b slices_S3x128_S1x128_2_0) shapeCasts_S1x128_S128

/-- One layer as the reference spells it, from the layer's weight matrices `ws`, `wn` and bias vector `bv`. -/
def layer (ws wn : (⟨S128x128, .f32⟩ : BufTy).Contents (Elt Ideal)) (bv : (⟨S128, .f32⟩ : BufTy).Contents (Elt Ideal))
    (src dst : EA) (h : FA) : FA :=
  maximumf
    (addf
      (addf (Host.dotGeneral (F := Ideal) (φ₁ := .f32) (φ₂ := .f32) dot_S100000x128_S128x128_S100000x128_1_0_0_1_n_n none h ws)
        (Host.dotGeneral (F := Ideal) (φ₁ := .f32) (φ₂ := .f32) dot_S100000x128_S128x128_S100000x128_1_0_0_1_n_n none (agg (inv dst) src dst h) wn))
      (broadcastInDim S100000x128 ![0, 1] bcast_S1x128_S100000x128_0_1 (broadcastInDim S1x128 ![1] bcast_S128_S1x128_1 bv)))
    (broadcastInDim S100000x128 ![] bcast_S_S100000x128 (constant (F := Ideal) S_ .f32 0x00000000#32))

/-- A layer is the dense layer of the features and of their neighbour mean. -/
theorem layer_eq (ws wn : (⟨S128x128, .f32⟩ : BufTy).Contents (Elt Ideal)) (bv : (⟨S128, .f32⟩ : BufTy).Contents (Elt Ideal))
    (src dst : EA) (h : FA) :
    layer ws wn bv src dst h = SageDense.dense (M := 100000) h (agg (inv dst) src dst h) ws wn (fun q => bv (ix1 q)) :=
  SageDense.host_layer dot_S100000x128_S128x128_S100000x128_1_0_0_1_n_n rfl bcast_S_S100000x128 bcast_S128_S1x128_1
    bcast_S1x128_S100000x128_0_1 h (agg (inv dst) src dst h) ws wn bv

set_option maxHeartbeats 4000000 in
/-- The run's result term is the layer map applied three times to the node features. -/
theorem res_eq (m : (ℓ : Loc nD τ sig) → Buf (Elt Ideal) ℓ) (c : Dev nD) :
    res_out0 (F := Ideal) m c
      = layer (wsel2 (m ((c.tc : Thread nD τ).loc main_arg1))) (wsel2 (m ((c.tc : Thread nD τ).loc main_arg2))) (bvec2 (m ((c.tc : Thread nD τ).loc main_arg3)))
          (m ((c.tc : Thread nD τ).loc main_arg4)) (m ((c.tc : Thread nD τ).loc main_arg5))
          (layer (wsel1 (m ((c.tc : Thread nD τ).loc main_arg1))) (wsel1 (m ((c.tc : Thread nD τ).loc main_arg2))) (bvec1 (m ((c.tc : Thread nD τ).loc main_arg3)))
            (m ((c.tc : Thread nD τ).loc main_arg4)) (m ((c.tc : Thread nD τ).loc main_arg5))
            (layer (wsel0 (m ((c.tc : Thread nD τ).loc main_arg1))) (wsel0 (m ((c.tc : Thread nD τ).loc main_arg2))) (bvec0 (m ((c.tc : Thread nD τ).loc main_arg3)))
              (m ((c.tc : Thread nD τ).loc main_arg4)) (m ((c.tc : Thread nD τ).loc main_arg5))
              (m ((c.tc : Thread nD τ).loc main_arg0)))) := by
  show res_main_v83 (F := Ideal) m c = _
  unfold res_main_v83
  rfl

end Cert.ReferenceIdeal.RefValue

end
-- ==== Proof.Bridge.lean ====
/-
  The two programs compute the same layer.  The kernel program's layer is the dense layer of the features and of their
  neighbour mean, read off its regions; the reference's layer is that dense layer too (RefValue.layer_eq).  The
  neighbour mean, the inverse in-degree column, the weight matrices and the bias vectors are the SAME host terms in
  both programs — the same operations with the same dimension records, each program naming its own copy of the
  records —, so the two layers are equal once both are unfolded.
-/
import proofs.«150632_j88648124991294_1_alg».proof.Proof.Chain
import proofs.«150632_j88648124991294_1_alg».proof.Proof.RefValue

set_option maxRecDepth 16384

noncomputable section

namespace Cert.Bridge

open Idealize.ShloMosaic

/-- The two programs' copies of the host terms agree. -/
theorem inv_eq : @Cert.ReferenceIdeal.RefValue.inv = @Cert.KernelIdeal.Stretch.inv := rfl
theorem agg_eq : @Cert.ReferenceIdeal.RefValue.agg = @Cert.KernelIdeal.Stretch.agg := rfl
theorem wsel0_eq : @Cert.ReferenceIdeal.RefValue.wsel0 = @Cert.KernelIdeal.Stretch.wsel0 := rfl
theorem wsel1_eq : @Cert.ReferenceIdeal.RefValue.wsel1 = @Cert.KernelIdeal.Stretch.wsel1 := rfl
theorem wsel2_eq : @Cert.ReferenceIdeal.RefValue.wsel2 = @Cert.KernelIdeal.Stretch.wsel2 := rfl
theorem bvec0_eq : @Cert.ReferenceIdeal.RefValue.bvec0 = @Cert.KernelIdeal.Stretch.bvec0 := rfl
theorem bvec1_eq : @Cert.ReferenceIdeal.RefValue.bvec1 = @Cert.KernelIdeal.Stretch.bvec1 := rfl
theorem bvec2_eq : @Cert.ReferenceIdeal.RefValue.bvec2 = @Cert.KernelIdeal.Stretch.bvec2 := rfl

theorem layer0_eq (a1 a2 : Cert.KernelIdeal.Stretch.WA) (a3 : Cert.KernelIdeal.Stretch.BA) (s d : Cert.KernelIdeal.Stretch.EA)
    (h : Cert.KernelIdeal.Stretch.FA) :
    Cert.ReferenceIdeal.RefValue.layer (Cert.ReferenceIdeal.RefValue.wsel0 a1) (Cert.ReferenceIdeal.RefValue.wsel0 a2)
        (Cert.ReferenceIdeal.RefValue.bvec0 a3) s d h
      = Cert.KernelIdeal.Chain.layer0 a1 a2 a3 s d h := by
  rw [Cert.ReferenceIdeal.RefValue.layer_eq, inv_eq, agg_eq, wsel0_eq, bvec0_eq]
  rfl

theorem layer1_eq (a1 a2 : Cert.KernelIdeal.Stretch.WA) (a3 : Cert.KernelIdeal.Stretch.BA) (s d : Cert.KernelIdeal.Stretch.EA)
    (h : Cert.KernelIdeal.Stretch.FA) :
    Cert.ReferenceIdeal.RefValue.layer (Cert.ReferenceIdeal.RefValue.wsel1 a1) (Cert.ReferenceIdeal.RefValue.wsel1 a2)
        (Cert.ReferenceIdeal.RefValue.bvec1 a3) s d h
      = Cert.KernelIdeal.Chain.layer1 a1 a2 a3 s d h := by
  rw [Cert.ReferenceIdeal.RefValue.layer_eq, inv_eq, agg_eq, wsel1_eq, bvec1_eq]
  rfl

theorem layer2_eq (a1 a2 : Cert.KernelIdeal.Stretch.WA) (a3 : Cert.KernelIdeal.Stretch.BA) (s d : Cert.KernelIdeal.Stretch.EA)
    (h : Cert.KernelIdeal.Stretch.FA) :
    Cert.ReferenceIdeal.RefValue.layer (Cert.ReferenceIdeal.RefValue.wsel2 a1) (Cert.ReferenceIdeal.RefValue.wsel2 a2)
        (Cert.ReferenceIdeal.RefValue.bvec2 a3) s d h
      = Cert.KernelIdeal.Chain.layer2 a1 a2 a3 s d h := by
  rw [Cert.ReferenceIdeal.RefValue.layer_eq, inv_eq, agg_eq, wsel2_eq, bvec2_eq]
  rfl

end Cert.Bridge

end
-- ==== Proof.lean ====
/-
  A three-layer mean-aggregation graph encoder: the kernel program against its array reference, on the extended reals.

  Both programs compute, for node features `x`, stacked weights `W_self`, `W_neigh`, stacked biases and an edge list
  `(src, dst)`: the inverse in-degree `1 / max(deg, 1)` of every node once, and then three times

      h  ↦  max ( h · W_self[l]  +  mean_nb(h) · W_neigh[l]  +  bias[l] , 0 ),

  where `mean_nb(h)` gathers `h` at the edges' sources, scatter-adds over their destinations and multiplies by the
  inverse in-degree.  The two programs run the SAME host operations for the in-degree, the neighbour mean, and the
  slices of the weights and biases; they differ only in the dense part of a layer.  The kernel program computes it in a
  pipelined region over 20 blocks of 5000 rows, each block on the matrix unit (operands narrowed first — the identity on
  the extended reals); the reference computes it with two host `dot_general`s on whole arrays.  Entry `(p, q)` of either is

      max ( Σ_k h[p,k]·W_self[l][k,q]  +  Σ_k mean_nb(h)[p,k]·W_neigh[l][k,q]  +  bias[l][q] , 0 )

  with the two sums over `k : Fin 128` kept apart and in this order on both sides, so no law of extended-real arithmetic
  beyond reading each operation at an index is used, and the finiteness of the inputs is never opened.

  The modules: Dense (the layer as a function), Body (a region's body at an entry), Region0–2 (each region's output array
  in closed form), Stretch (the host operations between the regions as named terms), RunNamed and Chain (the kernel
  program's run with its result read as three layers), RefLayer and RefValue (the reference's result as three layers),
  Bridge (the two layer maps are one).  The idealization rewrote no operation, so that claim is trivial; the three
  frame claims are the two generated frame certificates and the reference's generated run.
-/
import proofs.«150632_j88648124991294_1_alg».proof.Defs
import proofs.«150632_j88648124991294_1_alg».proof.Proof.Gen.Kernel
import proofs.«150632_j88648124991294_1_alg».proof.Proof.Gen.Kernel.Skeleton
import proofs.«150632_j88648124991294_1_alg».proof.Proof.Gen.Kernel.Launch
import proofs.«150632_j88648124991294_1_alg».proof.Proof.Gen.Kernel.Points
import proofs.«150632_j88648124991294_1_alg».proof.Proof.Gen.Kernel.Frame
import proofs.«150632_j88648124991294_1_alg».proof.Proof.Gen.KernelIdeal
import proofs.«150632_j88648124991294_1_alg».proof.Proof.Gen.KernelIdeal.Skeleton
import proofs.«150632_j88648124991294_1_alg».proof.Proof.Gen.KernelIdeal.Launch
import proofs.«150632_j88648124991294_1_alg».proof.Proof.Gen.KernelIdeal.Points
import proofs.«150632_j88648124991294_1_alg».proof.Proof.Gen.KernelIdeal.Frame
import proofs.«150632_j88648124991294_1_alg».proof.Proof.Gen.ReferenceIdeal
import proofs.«150632_j88648124991294_1_alg».proof.Proof.Gen.Pre_finite_inputs
import proofs.«150632_j88648124991294_1_alg».proof.Proof.Gen.ReferenceIdeal.Run
import proofs.«150632_j88648124991294_1_alg».proof.Proof.Chain
import proofs.«150632_j88648124991294_1_alg».proof.Proof.RefValue
import proofs.«150632_j88648124991294_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the three layers of the node features. -/
theorem algebraic : Cert.algebraic_KernelIdeal_ReferenceIdeal := by
  intro m ρ m' ρ' _ hagree
  refine ⟨_, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  refine (Cert.ReferenceIdeal.RefValue.res_eq m' c).trans ?_
  rw [e0, e1, e2, e3, e4, e5]
  rw [Cert.Bridge.layer0_eq, Cert.Bridge.layer1_eq, Cert.Bridge.layer2_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
